-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S4x3x512 : Shape := ⟨3, ![4, 3, 512]⟩
abbrev S4x512 : Shape := ⟨2, ![4, 512]⟩
abbrev S4x1x512 : Shape := ⟨3, ![4, 1, 512]⟩
abbrev S4x512x3 : Shape := ⟨3, ![4, 512, 3]⟩
abbrev S4x512x512 : Shape := ⟨3, ![4, 512, 512]⟩
abbrev S4x512x1 : Shape := ⟨3, ![4, 512, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x8192, .f32⟩
  | .local _ .vmem, ⟨3, _⟩ => ⟨S4x512, .f32⟩
  | .local _ .vmem, ⟨4, _⟩ => ⟨S4x512, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v20 : BitVec 32 := Scalar.muli arg4 c512_i32
  v20
def k0_off1 (k0_t1 : Fin k0_t1_loop.trips) : Fin 3 → Nat :=
  let c0_6 : Index := 0#32
  let c0_7 : Index := 0#32
  let c0_i32 : BitVec 32 := 0#32
  let c1_i32 : BitVec 32 := 1#32
  let arg4 : BitVec 32 := Scf.iv c0_i32 c1_i32 k0_t1
  let c512_i32 : BitVec 32 := 512#32
  let v20 : BitVec 32 := Scalar.muli arg4 c512_i32
  let v21 : BitVec 32 := v20
  let v22 : Index := Scalar.indexCast v21
  ![0, 0, v22.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x3x512_S4x3x512_0_0_0 : ∀ a, (![0, 0, 0] : Fin 3 → Nat) a + S4x3x512.size a ≤ S4x3x512.size a
  h_S4x3x512 : 0 < S4x3x512.numel
  slices_S4x3x512_o0_0_0_S4x1x512 : S4x3x512.Slices ![0, 0, 0] S4x1x512
  shapeCasts_S4x1x512_S4x512 : S4x1x512.ShapeCasts S4x512
  slices_S4x3x512_o0_1_0_S4x1x512 : S4x3x512.Slices ![0, 1, 0] S4x1x512
  slices_S4x3x512_o0_2_0_S4x1x512 : S4x3x512.Slices ![0, 2, 0] S4x1x512
  transposes_S4x3x512_p0_2_1_S4x512x3 : S4x3x512.Transposes [0, 2, 1] S4x512x3
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  reducesTo_S4x8192_S_d0_1 : S4x8192.ReducesTo [0, 1] S_
  h_S_ : 0 < S_.numel
  dot_S4x512x3_S4x512x3_S4x512x512_2_2_1_1_0_0_wf : DotDims.WF S4x512x3 S4x512x3 S4x512x512 [2] [2] [1] [1] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x3x512.size a ≤ S4x3x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x8192.size a
  hwx0_0 : ∀ i : grid0.Coords, EltTy.bits .f32 = 32 ∨ (Rect.block (s := S4x3x8192) S4x3x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x8192.size a ≤ S4x3x8192.size a
  hwx0_1 : ∀ i : grid0.Coords, EltTy.bits .f32 = 32 ∨ (Rect.block (s := S4x3x8192) S4x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x8192 : Shape := ⟨3, ![4, 3, 8192]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S_, .f32⟩
  | .hbm, ⟨4, _⟩ => ⟨S4x8192, .f32⟩
  | .hbm, ⟨5, _⟩ => ⟨S4x3x8192, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x3x8192_S4x8192_d1 : S4x3x8192.ReducesTo [1] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  dot_S4x3x8192_S4x3x8192_S4x8192x8192_1_1_2_2_0_0_wf : DotDims.WF S4x3x8192 S4x3x8192 S4x8192x8192 [1] [1] [2] [2] [0] [0]

variable [Facts₀]

def dot_S4x3x8192_S4x3x8192_S4x8192x8192_1_1_2_2_0_0 : DotDims S4x3x8192 S4x3x8192 S4x8192x8192 where
  lhsContracting := [1]
  rhsContracting := [1]
  lhsNonContracting := [2]
  rhsNonContracting := [2]
  lhsBatch := [0]
  rhsBatch := [0]
  wf := dot_S4x3x8192_S4x3x8192_S4x8192x8192_1_1_2_2_0_0_wf

class Facts : Prop extends Facts₀ where

variable [Facts]
-- ==== Proof.LibKeepdims3.lean ====
/-
  A stack of `a` matrices and its row and column vectors, read at an index by coordinates: a middle or trailing unit
  axis dropped from or added to an `[a, b]` array by a shape cast, and an `[a, b, 1]` column or an `[a, 1, c]` row
  broadcast to `[a, b, c]`.
-/
import Idealize.ShloMosaic.Lib.Pipeline.Value
import Idealize.ShloMosaic.Lib.ValueIdx

namespace Cert.Chamfer

open Idealize.ShloMosaic Idealize.ShloMosaic.ValueIdx

variable {α : Type}

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` column broadcast to `[a, b, c]` reads, at `(i, j, k)`, the column at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` row broadcast to `[a, b, c]` reads, at `(i, j, k)`, the row at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.Chamfer
-- ==== Proof.LibMinReduce.lean ====
/-
  Minimum reductions over the last axis of a rank-3 array, read at an index on the extended reals: the kernel-side
  vector reduction and the host-side reduce are both the minimum, folded from the start value, over the coordinates
  of the reduced axis.
-/
import Idealize.ShloMosaic.PureOps.Ideal.Laws
import Idealize.ShloMosaic.PureOps.Reduce
import Idealize.ShloMosaic.Lib.ValueIdx

noncomputable section

namespace Cert.Chamfer

open Idealize.ShloMosaic Idealize.ShloMosaic.ValueIdx

/-- A vector minimum reduction over ONE axis, read at a reduced index: the minimum, folded from the accumulator's
    value, over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The reduced index `(i, j)` with coordinate `k` put back on the last axis is `(i, j, k)`. -/
theorem lift_last3 {n0 n1 n2 : ℕ} (h : (⟨3, ![n0, n1, n2]⟩ : Shape).Reduces [2] (⟨2, ![n0, n1]⟩ : Shape)) (i : Fin n0) (j : Fin n1)
    (k : Fin ((⟨3, ![n0, n1, n2]⟩ : Shape).size 2)) : h.lift (ix2 i j) k = ix3 i j (⟨k.val, k.isLt⟩ : Fin n2) := by
  funext c; apply Fin.ext
  fin_cases c <;> rfl

/-- A vector minimum reduction of an `[n0, n1, n2]` array over its last axis, at `(i, j)`. -/
theorem multiReduction_minimumf_last3 {φ : FTy} {n0 n1 n2 : ℕ} (src : FVec Ideal (⟨3, ![n0, n1, n2]⟩ : Shape) φ) (acc : BitVec φ.bits)
    (h : (⟨3, ![n0, n1, n2]⟩ : Shape).Reduces [2] (⟨2, ![n0, n1]⟩ : Shape)) (hφ : FKind.Formats φ)
    (hacc : acc = FKind.minimumf.neutral φ hφ) (i : Fin n0) (j : Fin n1) :
    multiReduction .minimumf [2] (⟨2, ![n0, n1]⟩ : Shape) src acc h hφ hacc (ix2 i j)
      = (Finset.univ : Finset (Fin n2)).fold min (Ideal.ofBits φ acc) fun k => src (ix3 i j k) := by
  rw [multiReduction_minimumf_single]
  exact congrArg (fun f => Finset.fold min (Ideal.ofBits φ acc) f (Finset.univ : Finset (Fin n2)))
    (funext fun k => congrArg src (lift_last3 h i j k))

/-- The host's reduce with a minimum body of an `[n0, n1, n2]` array over its last axis, at `(i, j)`: the minimum,
    folded from the initial value, over the last axis. -/
theorem hostReduce_minimumf_last3 {φ : FTy} {n0 n1 n2 : ℕ} (x : FVec Ideal (⟨3, ![n0, n1, n2]⟩ : Shape) φ)
    (init : (⟨0, ![]⟩ : Shape).Idx → Ideal φ)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape))
    (hu : 0 < (⟨0, ![]⟩ : Shape).numel) (i : Fin n0) (j : Fin n1) :
    Host.reduce FloatOps.minimumf x init h' hu (ix2 i j)
      = (Finset.univ : Finset (Fin n2)).fold min (init (Shape.Idx.first hu)) fun k => x (ix3 i j k) := by
  rw [Host.reduce_eq_fold_single FloatOps.minimumf x _ h' h hu]
  exact congrArg (fun f => Finset.fold min (init (Shape.Idx.first hu)) f (Finset.univ : Finset (Fin n2)))
    (funext fun k => congrArg x (lift_last3 h i j k))

end Cert.Chamfer

end
-- ==== Proof.LibMonoMin.lean ====
/-
  Minima of finite families in a linear order, folded from a start value.

  * A monotone map commutes with such a minimum: `g (min_{i ∈ s} (b, f i)) = min_{i ∈ s} (g b, g (f i))`.
  * A minimum taken chunk by chunk — a running value that is lowered, `K` times, by the minimum of the next
    `T` entries — is the minimum of all `K * T` entries.
-/
import Mathlib.Data.Finset.Fold
import Mathlib.Order.Monotone.Basic
import Mathlib.Order.MinMax
import Mathlib.Data.Fintype.Basic

namespace Cert.Chamfer

variable {α β ι : Type*} [LinearOrder α] [LinearOrder β]

/-- A monotone map of linear orders sends the minimum of a finite family (folded from `b`) to the minimum of
    the images (folded from the image of `b`). -/
theorem map_fold_min (g : α → β) (hg : Monotone g) (s : Finset ι) (b : α) (f : ι → α) :
    g (s.fold min b f) = s.fold min (g b) (fun i => g (f i)) := by
  classical
  induction s using Finset.induction_on with
  | empty => simp
  | insert a s ha ih => rw [Finset.fold_insert ha, Finset.fold_insert ha, hg.map_min, ih]

/-- Two elements with the same lower bounds are equal. -/
theorem eq_of_le_iff {x y : α} (h : ∀ z, z ≤ x ↔ z ≤ y) : x = y :=
  le_antisymm ((h x).mp le_rfl) ((h y).mpr le_rfl)

/-- The running minimum over chunks. `acc 0` is the start value `b`; step `k < K` lowers the running value by the
    minimum (folded from `b` again) of entries `k * T, …, k * T + T - 1`. After `K` steps the running value is the
    minimum of the first `K * T` entries, folded from `b`. The family is indexed by the naturals (only the entries
    below `K * T` are read). -/
theorem chunked_min_le_iff (T K : ℕ) (f : ℕ → α) (b : α) (acc : ℕ → α) (h0 : acc 0 = b)
    (hs : ∀ k, k < K → acc (k + 1) = min (acc k) ((Finset.univ : Finset (Fin T)).fold min b fun j => f (k * T + j.val)))
    (z : α) : z ≤ acc K ↔ z ≤ b ∧ ∀ n, n < K * T → z ≤ f n := by
  induction K with
  | zero => simp [h0]
  | succ K ih =>
    rw [hs K (Nat.lt_succ_self K), le_min_iff, ih (fun k hk => hs k (Nat.lt_succ_of_lt hk)), Finset.le_fold_min]
    constructor
    · rintro ⟨⟨hb, hlo⟩, -, hhi⟩
      refine ⟨hb, fun n hn => ?_⟩
      by_cases hlt : n < K * T
      · exact hlo n hlt
      · have hge : K * T ≤ n := Nat.le_of_not_lt hlt
        have hjT : n - K * T < T := by
          have : (K + 1) * T = K * T + T := Nat.succ_mul K T
          omega
        have := hhi ⟨n - K * T, hjT⟩ (Finset.mem_univ _)
        rwa [show K * T + (n - K * T) = n by omega] at this
    · rintro ⟨hb, hall⟩
      have hsucc : (K + 1) * T = K * T + T := Nat.succ_mul K T
      exact ⟨⟨hb, fun n hn => hall n (by omega)⟩, hb, fun j _ => hall _ (by have := j.isLt; omega)⟩

/-- The same as an equation: the running minimum over `K` chunks of `T` entries is the minimum over
    `Fin N`, `N = K * T`. -/
theorem chunked_min_eq (T K N : ℕ) (hN : N = K * T) (f : ℕ → α) (b : α) (acc : ℕ → α) (h0 : acc 0 = b)
    (hs : ∀ k, k < K → acc (k + 1) = min (acc k) ((Finset.univ : Finset (Fin T)).fold min b fun j => f (k * T + j.val))) :
    acc K = (Finset.univ : Finset (Fin N)).fold min b fun n => f n.val := by
  refine eq_of_le_iff fun z => ?_
  rw [chunked_min_le_iff T K f b acc h0 hs z, Finset.le_fold_min]
  subst hN
  exact ⟨fun ⟨hb, h⟩ => ⟨hb, fun n _ => h n.val n.isLt⟩, fun ⟨hb, h⟩ => ⟨hb, fun n hn => h ⟨n, hn⟩ (Finset.mem_univ _)⟩⟩

end Cert.Chamfer
-- ==== Proof.Dist.lean ====
/-
  The mathematics of the nearest-neighbour distance, on the extended reals.

  A point is three coordinates. For points `P`, `Q` the squared distance is written the way both programs compute it,
  `d²(P, Q) = (|P|² + |Q|²) − 2 · ⟨P, Q⟩`, and the distance is `√(max(d², 0))`. The map `x ↦ √(max(x, 0))` is
  monotone on the extended reals and fixes `+∞`, so it commutes with the minimum of a finite family folded from `+∞`:
  the root of the smallest squared distance is the smallest distance.
-/
import Idealize.ShloMosaic.PureOps.Ideal
import Idealize.ShloMosaic.PureOps.Ideal.Laws
import Idealize.ShloMosaic.Lib.ValueIdx
import proofs.«155955_j66022237274633_2_alg».proof.Proof.LibMonoMin

noncomputable section

namespace Cert.Chamfer

open Idealize.ShloMosaic Idealize.ShloMosaic.ValueIdx

/-- The float words the programs write for `+∞`, `2` and `0`, as extended reals. -/
abbrev infW : EReal := Ideal.ofBits .f32 0x7F800000#32
abbrev twoW : EReal := Ideal.ofBits .f32 0x40000000#32
abbrev zeroW : EReal := Ideal.ofBits .f32 0x00000000#32

/-- The word `0x7F800000` is `+∞`. -/
theorem infW_eq_top : infW = ⊤ := by simp [infW, Ideal.ofBits, Ideal.ieee]

/-- The squared norm of a point, summed left to right. -/
def sqn (P : Fin 3 → EReal) : EReal := P 0 * P 0 + P 1 * P 1 + P 2 * P 2

/-- The squared distance of two points as the sum of the squared norms less twice the inner product. -/
def dist2 (P Q : Fin 3 → EReal) : EReal := (sqn P + sqn Q) - twoW * ∑ d : Fin 3, P d * Q d

/-- The root of a squared distance clamped at zero. -/
def clampRoot (x : EReal) : EReal := Ideal.sqrt (max x zeroW)

/-- The square root of the extended reals (`⊥` below zero, `√` on the nonnegative reals, `+∞` at `+∞`) is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

theorem clampRoot_mono : Monotone clampRoot := fun _ _ h => sqrt_mono (max_le_max h le_rfl)

/-- `+∞` is a fixed point: `√(max(+∞, 0)) = +∞`. -/
theorem clampRoot_infW : clampRoot infW = infW := by
  unfold clampRoot
  rw [infW_eq_top, max_eq_left le_top, Ideal.sqrt_top]

/-- The clamped root of the least of finitely many values (from `+∞`) is the least of their clamped roots. -/
theorem clampRoot_fold_min {ι : Type*} (s : Finset ι) (D : ι → EReal) :
    clampRoot (s.fold min infW D) = s.fold min infW fun n => clampRoot (D n) := by
  rw [map_fold_min clampRoot clampRoot_mono, clampRoot_infW]

/-- The distance from point `m` of cloud `A` (batch `b`) to the nearest point of cloud `B`: over the `8192` points `n` of
    `B`, the least `√(max(d²(A[b,·,m], B[b,·,n]), 0))`, folded from `+∞`. -/
def nearest (A B : (⟨3, ![4, 3, 8192]⟩ : Shape).Idx → EReal) (b : Fin 4) (m : Fin 8192) : EReal :=
  (Finset.univ : Finset (Fin 8192)).fold min infW fun n =>
    clampRoot (dist2 (fun d => A (ix3 b d m)) (fun d => B (ix3 b d n)))

/-- The array of nearest distances, `[4, 8192]`. -/
def nearestArr (A B : (⟨3, ![4, 3, 8192]⟩ : Shape).Idx → EReal) : (⟨2, ![4, 8192]⟩ : Shape).Idx → EReal :=
  fun i => nearest A B (i 0) (i 1)

theorem nearestArr_ix2 (A B : (⟨3, ![4, 3, 8192]⟩ : Shape).Idx → EReal) (b : Fin 4) (m : Fin 8192) :
    nearestArr A B (ix2 b m) = nearest A B b m := rfl

/-- The mean of a `[4, 8192]` array as both programs take it: the sum of all entries, from zero, divided by the word
    for `32768`. -/
def meanOf (h : (⟨2, ![4, 8192]⟩ : Shape).ReducesTo [0, 1] (⟨0, ![]⟩ : Shape)) (hu : 0 < (⟨0, ![]⟩ : Shape).numel)
    (a : (⟨2, ![4, 8192]⟩ : Shape).Idx → EReal) : (⟨0, ![]⟩ : Shape).Idx → EReal :=
  Host.divf (F := Ideal) (φ := .f32)
    (Host.reduceAdd (F := Ideal) (φ := .f32) a (constant (F := Ideal) (⟨0, ![]⟩ : Shape) .f32 0x00000000#32) h hu)
    (constant (F := Ideal) (⟨0, ![]⟩ : Shape) .f32 0x47000000#32)

end Cert.Chamfer

end
-- ==== Proof.Payload.lean ====
/-
  The kernel body's arithmetic read at an index, on the extended reals.

  One trip of the body's loop takes the running minimum `acc` (a `[4, 512]` array: batch, source point), the source
  block `x` (`[4, 3, 512]`: batch, coordinate, point) and a chunk `y` of 512 target points (`[4, 3, 512]`), and
  returns, at `(b, r)`, the smaller of `acc (b, r)` and the least squared distance `d²(x[b,·,r], y[b,·,j])` over the
  chunk's points `j`. After the loop the body stores `√(max(·, 0))` of the running minimum.
-/
import proofs.«155955_j66022237274633_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«155955_j66022237274633_2_alg».proof.Proof.LibKeepdims3
import proofs.«155955_j66022237274633_2_alg».proof.Proof.LibMinReduce
import proofs.«155955_j66022237274633_2_alg».proof.Proof.Dist

noncomputable section

namespace Cert.KernelIdeal.Pay

open Idealize.ShloMosaic Idealize.ShloMosaic.ValueIdx
open Cert.KernelIdeal Cert.KernelIdeal.Gen Cert.Chamfer

/-- Coordinate row `k` of a block — the slice at offset `o = k` on the coordinate axis, its unit axis dropped — read at
    `(b, r)` is the block at `(b, k, r)`. -/
theorem row_apply (o : Nat) (x : FVec Ideal S4x3x512 .f32) (h : S4x3x512.Slices ![0, o, 0] S4x1x512)
    (h' : S4x1x512.ShapeCasts S4x512) (b : Fin 4) (r : Fin 512) (k : Fin 3) (hk : k.val = o) :
    shapeCast S4x512 (extractStridedSlice S4x1x512 ![0, o, 0] x h) h' (ix2 b r) = x (ix3 b k r) :=
  (shapeCast_a1c_ac_apply _ h' b r).trans (slice3_axis1_apply o x h b (0 : Fin 1) r k (by rw [hk]; rfl))

/-! ### The batched product of the transposed blocks -/

theorem lhs0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem lhs1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
theorem lhs2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem rhs0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem rhs1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
theorem rhs2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The batched product of two `[4, 512, 3]` arrays contracted on their last axes, into the zero accumulator, read at
    `(b, p, q)`: the inner product of row `p` of the left with row `q` of the right, in batch `b`. -/
theorem cross_apply (prec : Option ContractPrecision) (l r : FVec Ideal S4x512x3 .f32) (b : Fin 4) (p q : Fin 512) :
    matmul dot_S4x512x3_S4x512x3_S4x512x512_2_2_1_1_0_0 prec l r (constant S4x512x512 .f32 0x00000000#32) (ix3 b p q)
      = ∑ d : Fin 3, l (ix3 b p d) * r (ix3 b q d) := by
  simp only [matmul]
  rw [Ideal.matmul_constant_zero_apply,
    ← Equiv.sum_comp (contrEquiv1 dot_S4x512x3_S4x512x3_S4x512x512_2_2_1_1_0_0 3 rfl rfl).symm]
  refine Finset.sum_congr rfl fun k _ => ?_
  have hk := contrEquiv1_symm_val dot_S4x512x3_S4x512x3_S4x512x512_2_2_1_1_0_0 3 rfl rfl k
  have el : dot_S4x512x3_S4x512x3_S4x512x512_2_2_1_1_0_0.lhsIdx (ix3 b p q)
      ((contrEquiv1 dot_S4x512x3_S4x512x3_S4x512x512_2_2_1_1_0_0 3 rfl rfl).symm k) = ix3 b p k :=
    funext fun a => Fin.ext (by
      match a with
      | ⟨0, _⟩ => exact lhs0 _ _
      | ⟨1, _⟩ => exact lhs1 _ _
      | ⟨2, _⟩ => exact (lhs2 _ _).trans hk)
  have er : dot_S4x512x3_S4x512x3_S4x512x512_2_2_1_1_0_0.rhsIdx (ix3 b p q)
      ((contrEquiv1 dot_S4x512x3_S4x512x3_S4x512x512_2_2_1_1_0_0 3 rfl rfl).symm k) = ix3 b q k :=
    funext fun a => Fin.ext (by
      match a with
      | ⟨0, _⟩ => exact rhs0 _ _
      | ⟨1, _⟩ => exact rhs1 _ _
      | ⟨2, _⟩ => exact (rhs2 _ _).trans hk)
  rw [el, er]

/-! ### One trip, and the final store -/

/-- One trip at `(b, r)`: the running minimum lowered by the least squared distance from source point `r` to the
    chunk's 512 points. -/
theorem pay2_apply (x : Vec Ideal S4x3x512 .f32) (acc : FVec Ideal S4x512 .f32) (y : Vec Ideal S4x3x512 .f32)
    (b : Fin 4) (r : Fin 512) :
    k0_pay2 x acc y (ix2 b r)
      = min (acc (ix2 b r)) ((Finset.univ : Finset (Fin 512)).fold min infW fun j =>
          dist2 (fun d => x (ix3 b d r)) (fun d => y (ix3 b d j))) := by
  unfold k0_pay2
  dsimp only
  refine congrArg (min (acc (ix2 b r))) ?_
  refine (multiReduction_minimumf_last3 _ _ _ _ _ b r).trans ?_
  refine congrArg (fun f => Finset.fold min infW f (Finset.univ : Finset (Fin 512))) (funext fun j => ?_)
  rw [subf_apply, addf_apply, mulf_apply, broadcast_apply]
  rw [broadcastTo_ab1_abc_apply, broadcastTo_a1c_abc_apply, shapeCast_ab_ab1_apply, shapeCast_ac_a1c_apply, cross_apply]
  rw [addf_apply, addf_apply, addf_apply, addf_apply, mulf_apply, mulf_apply, mulf_apply, mulf_apply, mulf_apply, mulf_apply]
  rw [row_apply 0 x _ _ b r 0 rfl, row_apply 1 x _ _ b r 1 rfl, row_apply 2 x _ _ b r 2 rfl,
    row_apply 0 y _ _ b j 0 rfl, row_apply 1 y _ _ b j 1 rfl, row_apply 2 y _ _ b j 2 rfl]
  have hs : (∑ d : Fin 3, transpose S4x512x3 [0, 2, 1] x transposes_S4x3x512_p0_2_1_S4x512x3 (ix3 b r d)
        * transpose S4x512x3 [0, 2, 1] y transposes_S4x3x512_p0_2_1_S4x512x3 (ix3 b j d))
      = ∑ d : Fin 3, x (ix3 b d r) * y (ix3 b d j) :=
    Finset.sum_congr rfl fun d _ => by rw [transpose_ix3_021_apply, transpose_ix3_021_apply]
  rw [hs]
  rfl

/-- The stored value at `(b, r)`: the clamped root of the running minimum there. -/
theorem pay3_apply (v : FVec Ideal S4x512 .f32) (b : Fin 4) (r : Fin 512) :
    k0_pay3 v (ix2 b r) = clampRoot (v (ix2 b r)) := rfl

/-- The loop's start value at `(b, r)`: `+∞`. -/
theorem pay1_apply (b : Fin 4) (r : Fin 512) : k0_pay1 (F := Ideal) (ix2 b r) = infW := rfl

end Cert.KernelIdeal.Pay

end
-- ==== Proof.Body.lean ====
/-
  What the kernel body leaves in its output block, at any grid point.

  The body loads its source block `x` (`[4, 3, 512]`), runs sixteen trips of a loop that carries a running minimum
  from `+∞` — trip `k` loads chunk `k` of the target cloud `y` (`[4, 3, 8192]`: the 512 points from `512 k` on) and
  lowers the running minimum by that chunk's least squared distances —, and stores `√(max(·, 0))` of the result. So the
  block's entry `(b, r)` is the clamped root of the least squared distance from source point `r` to all 8192 target
  points, which is the least distance.
-/
import proofs.«155955_j66022237274633_2_alg».proof.Proof.Gen.KernelIdeal.Frame
import Idealize.ShloMosaic.Lib.Pipeline.Value
import Idealize.ShloMosaic.Lib.Tactic
import proofs.«155955_j66022237274633_2_alg».proof.Proof.Payload

noncomputable section

namespace Cert.KernelIdeal.Body

open Idealize.ShloMosaic Idealize.ShloMosaic.TcCoe Idealize.SL.Sem Idealize.ShloMosaic.ValueIdx
open Cert.KernelIdeal Cert.KernelIdeal.Gen Cert.Chamfer

section AnyInstance

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk `k` of the target cloud: what trip `k` loads. -/
def chunk (y : Vec F S4x3x8192 .f32) (k : Fin k0_t1_loop.trips) : Vec F S4x3x512 .f32 :=
  View.ld y (Rect.unit (k0_off1 k) S4x3x512.size (k0_off1_inb k))

/-- One trip of the loop yields the trip's arithmetic of the source block, the carried value and the chunk it loads. -/
theorem trip_eq (𝒱 : Variants) (c : Dev nD) (bd : Option 𝒱.V) (i : grid0.Coords) (a1 : Memref sig .tc .vmem S4x3x512 .f32)
    (h1 : a1.IsWhole) (a2 : Memref sig .tc .vmem S4x3x8192 .f32) (h2 : a2.IsWhole) (a3 : Memref sig .tc .vmem S4x512 .f32)
    (h3 : a3.IsWhole) (v0 : Vec F S4x3x512 .f32) (X : BufTy.Contents (Elt F) a2.view.ty) (k : Fin k0_t1_loop.trips)
    (acc : FVec F S4x512 .f32) :
    tripR_k0_t1 𝒱 c bd i a1 h1 a2 h2 a3 h3 v0 X k acc
      = k0_pay2 v0 acc (View.ld (a2.view.read (Elt F) X) (Rect.unit (k0_off1 k) S4x3x512.size (k0_off1_inb k))) := by
  unfold tripR_k0_t1 trip_k0_t1
  rfl

/-- The running minimum before trip `n`. -/
def chain (x : Vec F S4x3x512 .f32) (y : Vec F S4x3x8192 .f32) : ℕ → FVec F S4x512 .f32
  | 0 => k0_pay1
  | k + 1 => if h : k < k0_t1_loop.trips then k0_pay2 x (chain x y k) (chunk y ⟨k, h⟩) else chain x y k

theorem chain_succ (x : Vec F S4x3x512 .f32) (y : Vec F S4x3x8192 .f32) (k : ℕ) :
    chain x y (k + 1) = if h : k < k0_t1_loop.trips then k0_pay2 x (chain x y k) (chunk y ⟨k, h⟩) else chain x y k := rfl

/-- The loop's carried value, as the run finds it, is that running minimum. -/
theorem st_eq (c : Dev nD) (i : grid0.Coords) (a1 : Memref sig .tc .vmem S4x3x512 .f32) (h1 : a1.IsWhole)
    (a2 : Memref sig .tc .vmem S4x3x8192 .f32) (h2 : a2.IsWhole) (a3 : Memref sig .tc .vmem S4x512 .f32) (h3 : a3.IsWhole)
    (x : Vec F S4x3x512 .f32) (y : Vec F S4x3x8192 .f32) (n : ℕ) :
    st_k0_t1 Variants.none c none i a1 h1 a2 h2 a3 h3 x (h2.unread y) k0_pay1 n = chain x y n := by
  induction n with
  | zero => rfl
  | succ k ih =>
    rw [st_k0_t1.eq_2, chain_succ]
    unfold st_k0_t1Step
    by_cases h : k < k0_t1_loop.trips
    · rw [dif_pos h, dif_pos h, trip_eq, ih, h2.read_unread]
      rfl
    · rw [dif_neg h, dif_neg h, ih]

/-- What the body leaves in the output's staging buffer: the clamped roots of the running minimum after the last trip. -/
theorem out_eq (c : Dev nD) (i : grid0.Coords) (a1 : Memref sig .tc .vmem S4x3x512 .f32) (h1 : a1.IsWhole)
    (a2 : Memref sig .tc .vmem S4x3x8192 .f32) (h2 : a2.IsWhole) (a3 : Memref sig .tc .vmem S4x512 .f32) (h3 : a3.IsWhole)
    (x : Vec F S4x3x512 .f32) (y : Vec F S4x3x8192 .f32) :
    out0_A_2 c i a1 h1 a2 h2 a3 h3 x y = k0_pay3 (chain x y k0_t1_loop.trips) := by
  unfold out0_A_2
  rw [View.read_writes_eq_canon _ _ _ (cover0_A_2 c i a1 h1 a2 h2 a3 h3 x y)]
  unfold kernelRun0_A
  dsimp only
  rw [View.canon_unit_zero hz2]
  rw [View.readAt_eq_ld, h1.read_unread, View.ld_unit_zero (S := S4x3x512) hz3, st_eq]

end AnyInstance

/-! ### On the extended reals -/

theorem trips_eq : k0_t1_loop.trips = 16 := by decide

/-- Trip `k` loads from the 512 points starting at `512 k`. -/
theorem off_eq : ∀ k : Fin k0_t1_loop.trips, k0_off1 k = ![0, 0, 512 * k.val] := by decide +kernel

/-- Chunk `k` at `(b, d, j)` is the target cloud at `(b, d, 512 k + j)`. -/
theorem chunk_apply (y : Vec Ideal S4x3x8192 .f32) (k : Fin k0_t1_loop.trips) (b : Fin 4) (d : Fin 3) (j : Fin 512)
    (n : Fin 8192) (hn : n.val = 512 * k.val + j.val) : chunk y k (ix3 b d j) = y (ix3 b d n) := by
  unfold chunk
  show y ((Rect.unit (s := S4x3x8192) (k0_off1 k) S4x3x512.size (k0_off1_inb k)).idx (ix3 b d j)) = _
  refine congrArg y (funext fun a => Fin.ext ?_)
  rw [LoadRect.idx_apply]
  have ho := off_eq k
  match a with
  | ⟨0, _⟩ => show k0_off1 k 0 + 1 * b.val = b.val; rw [ho]; show 0 + 1 * b.val = b.val; omega
  | ⟨1, _⟩ => show k0_off1 k 1 + 1 * d.val = d.val; rw [ho]; show 0 + 1 * d.val = d.val; omega
  | ⟨2, _⟩ => show k0_off1 k 2 + 1 * j.val = n.val; rw [ho, hn]; show 512 * k.val + 1 * j.val = _; omega

/-- The running minimum after the sixteen trips, at `(b, r)`: the least squared distance from source point `r` to the
    8192 target points, from `+∞`. -/
theorem chain_apply (x : Vec Ideal S4x3x512 .f32) (y : Vec Ideal S4x3x8192 .f32) (b : Fin 4) (r : Fin 512) :
    chain x y k0_t1_loop.trips (ix2 b r)
      = (Finset.univ : Finset (Fin 8192)).fold min infW fun n =>
          dist2 (fun d => x (ix3 b d r)) (fun d => y (ix3 b d n)) := by
  have key := chunked_min_eq 512 16 8192 (by norm_num)
    (fun n => if h : n < 8192 then dist2 (fun d => x (ix3 b d r)) (fun d => y (ix3 b d ⟨n, h⟩)) else infW) infW
    (fun k => chain x y k (ix2 b r)) (Pay.pay1_apply b r) (fun k hk => by
      have hk' : k < k0_t1_loop.trips := by rw [trips_eq]; exact hk
      show chain x y (k + 1) (ix2 b r) = _
      rw [chain_succ, dif_pos hk', Pay.pay2_apply]
      refine congrArg (min _) (congrArg (fun f => Finset.fold min infW f (Finset.univ : Finset (Fin 512))) (funext fun j => ?_))
      have hj := j.isLt
      have hlt : k * 512 + j.val < 8192 := by omega
      rw [dif_pos hlt]
      refine congrArg (dist2 _) (funext fun d => ?_)
      exact chunk_apply y ⟨k, hk'⟩ b d j ⟨k * 512 + j.val, hlt⟩ (by show k * 512 + j.val = 512 * k + j.val; omega))
  rw [trips_eq]
  refine key.trans (congrArg (fun f => Finset.fold min infW f (Finset.univ : Finset (Fin 8192))) (funext fun n => ?_))
  rw [dif_pos n.isLt]

/-- The body's output block at `(b, r)`: the least distance from source point `r` to the 8192 target points. -/
theorem out_apply (x : Vec Ideal S4x3x512 .f32) (y : Vec Ideal S4x3x8192 .f32) (b : Fin 4) (r : Fin 512) :
    k0_pay3 (chain x y k0_t1_loop.trips) (ix2 b r)
      = (Finset.univ : Finset (Fin 8192)).fold min infW fun n =>
          clampRoot (dist2 (fun d => x (ix3 b d r)) (fun d => y (ix3 b d n))) := by
  rw [Pay.pay3_apply, chain_apply, clampRoot_fold_min]

end Cert.KernelIdeal.Body

end
-- ==== Proof.KernelValue.lean ====
/-
  What the kernel's program computes, on the extended reals.

  The grid has sixteen points. Point `t` reads source points `512 t, …, 512 t + 511` of every batch (its block of the
  first argument), the whole second argument, and writes back columns `512 t, …` of the `[4, 8192]` result: at
  `(b, r)` the least distance from source point `512 t + r` to the target cloud. The sixteen blocks tile the result,
  so the result array is the array of nearest distances of the two arguments; the host lines after the call take
  its mean.
-/
import proofs.«155955_j66022237274633_2_alg».proof.Proof.Gen.KernelIdeal.Frame
import Idealize.ShloMosaic.Lib.Pipeline.Value
import Idealize.ShloMosaic.Lib.StableHlo.Run
import Idealize.ShloMosaic.Lib.Tactic
import proofs.«155955_j66022237274633_2_alg».proof.Proof.Body

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ) (ρ : Dev nD → PrngReg)

/-- The printed index maps over the grid: the source block moves along the point axis with the grid point, the target
    cloud is taken whole, and the result block moves along the column axis with the grid point. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The result array as a function of the argument arrays as the call finds them. -/
def G (c : Dev nD) : Buf (Elt Ideal) ((c : Thread nD τ).loc main_v0) :=
  nearestArr (V m c main_arg0) (V m c main_arg1)

/-- The same over the launch memory's argument arrays. -/
theorem G_eq (c : Dev nD) :
    G m c = nearestArr (m ((c : Thread nD τ).loc main_arg0)) (m ((c : Thread nD τ).loc main_arg1)) := by
  unfold G
  rw [V_main_arg0, V_main_arg1]

/-- The source block of point `t` at `(b, d, r)` is the first argument at `(b, d, 512 t + r)`. -/
theorem iblk0_apply (c : Dev nD) (t : Fin cfg0.N) (b : Fin 4) (d : Fin 3) (r : Fin 512) (n : Fin 8192)
    (hn : n.val = 512 * t.val + r.val) :
    (iblk m c 0 t : Vec Ideal S4x3x512 .f32) (ix3 b d r) = V m c main_arg0 (ix3 b d n) := by
  obtain ⟨e0, e1, e2, -, -, -, -, -⟩ := idx_facts t
  unfold iblk
  rw [View.read_apply]
  show V m c main_arg0 (((cfg0.win 0).blk t).view.emb (ix3 b d r)) = V m c main_arg0 (ix3 b d n)
  refine congrArg (V m c main_arg0) (funext fun a => Fin.ext ?_)
  match a with
  | ⟨0, _⟩ => show win0_0.index t (0 : Fin 3) * 4 + 1 * b.val = b.val; omega
  | ⟨1, _⟩ => show win0_0.index t (1 : Fin 3) * 3 + 1 * d.val = d.val; omega
  | ⟨2, _⟩ => show win0_0.index t (2 : Fin 3) * 512 + 1 * r.val = n.val; omega

/-- The second window's block at any point is the whole second argument. -/
theorem iblk1_apply (c : Dev nD) (t : Fin cfg0.N) (b : Fin 4) (d : Fin 3) (n : Fin 8192) :
    (iblk m c 1 t : Vec Ideal S4x3x8192 .f32) (ix3 b d n) = V m c main_arg1 (ix3 b d n) := by
  obtain ⟨-, -, -, e0, e1, e2, -, -⟩ := idx_facts t
  unfold iblk
  rw [View.read_apply]
  show V m c main_arg1 (((cfg0.win 1).blk t).view.emb (ix3 b d n)) = V m c main_arg1 (ix3 b d n)
  refine congrArg (V m c main_arg1) (funext fun a => Fin.ext ?_)
  match a with
  | ⟨0, _⟩ => show win0_1.index t (0 : Fin 3) * 4 + 1 * b.val = b.val; omega
  | ⟨1, _⟩ => show win0_1.index t (1 : Fin 3) * 3 + 1 * d.val = d.val; omega
  | ⟨2, _⟩ => show win0_1.index t (2 : Fin 3) * 8192 + 1 * n.val = n.val; omega

/-- Entry `(b, r)` of point `t`'s result block sits at `(b, 512 t + r)` of the result array. -/
theorem emb2_eq (t : Fin cfg0.N) (b : Fin 4) (r : Fin 512) (n : Fin 8192) (hn : n.val = 512 * t.val + r.val) :
    ((cfg0.win 2).blk t).view.emb (ix2 b r) = (ix2 b n : S4x8192.Idx) := by
  obtain ⟨-, -, -, -, -, -, e0, e1⟩ := idx_facts t
  funext a; apply Fin.ext
  match a with
  | ⟨0, _⟩ => show win0_2.index t (0 : Fin 2) * 4 + 1 * b.val = b.val; omega
  | ⟨1, _⟩ => show win0_2.index t (1 : Fin 2) * 512 + 1 * r.val = n.val; omega

/-- What point `t` writes back is block `t` of the array of nearest distances. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  rw [Body.out_eq]
  funext j
  obtain ⟨b, r, rfl⟩ : ∃ (b : Fin 4) (r : Fin 512), j = ix2 b r := ⟨j 0, j 1, eq_ix2 j⟩
  have hN : cfg0.N = 16 := N_0
  have ht : t.val < 16 := by have := t.isLt; omega
  have hr := r.isLt
  show k0_pay3 (Body.chain (iblk m c 0 t) (iblk m c 1 t) k0_t1_loop.trips) (ix2 b r)
    = G m c (((cfg0.win 2).blk t).view.emb (ix2 b r))
  rw [emb2_eq t b r ⟨512 * t.val + r.val, by omega⟩ rfl]
  refine (Body.out_apply (iblk m c 0 t) (iblk m c 1 t) b r).trans ?_
  show _ = nearest (V m c main_arg0) (V m c main_arg1) b ⟨512 * t.val + r.val, _⟩
  unfold nearest
  refine congrArg (fun f => Finset.fold min infW f (Finset.univ : Finset (Fin 8192))) (funext fun n => ?_)
  refine congrArg clampRoot ?_
  have h0 : (fun d : Fin 3 => (iblk m c 0 t : Vec Ideal S4x3x512 .f32) (ix3 b d r))
      = fun d : Fin 3 => V m c main_arg0 (ix3 b d (⟨512 * t.val + r.val, by omega⟩ : Fin 8192)) :=
    funext fun d => iblk0_apply m c t b d r _ rfl
  have h1 : (fun d : Fin 3 => (iblk m c 1 t : Vec Ideal S4x3x8192 .f32) (ix3 b d n))
      = fun d : Fin 3 => V m c main_arg1 (ix3 b d n) :=
    funext fun d => iblk1_apply m c t b d n
  rw [h0, h1]

/-- An index of the result is in point `t`'s block iff each coordinate is in the block's range on its axis. -/
theorem mem_blk (t : Fin cfg0.N) (i : S4x8192.Idx) :
    i ∈ ((cfg0.win 2).blk t).view.set ↔ ∀ a : Fin 2, win0_2.index t a * S4x512.size a ≤ (i a).val
      ∧ (i a).val < win0_2.index t a * S4x512.size a + S4x512.size a := by
  show i ∈ ((View.whole main_v0).slice (win0_2.rect t)).set ↔ _
  rw [View.set_slice_whole, Rect.mem_set_unit]
  exact Iff.rfl

/-- Every column of the result is in the block of the point `column / 512`. -/
theorem cover (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 16 := N_0
  refine ⟨⟨(i 1).val / 512, by rw [hN]; omega⟩, flush0_2 _, ?_⟩
  rw [mem_blk]
  obtain ⟨-, -, -, -, -, -, e0, e1⟩ := idx_facts ⟨(i 1).val / 512, by rw [hN]; omega⟩
  intro a
  match a with
  | ⟨0, _⟩ =>
    show win0_2.index _ (0 : Fin 2) * 4 ≤ (i 0).val ∧ (i 0).val < win0_2.index _ (0 : Fin 2) * 4 + 4
    rw [e0]; omega
  | ⟨1, _⟩ =>
    show win0_2.index _ (1 : Fin 2) * 512 ≤ (i 1).val ∧ (i 1).val < win0_2.index _ (1 : Fin 2) * 512 + 512
    rw [e1]; show (i 1).val / 512 * 512 ≤ (i 1).val ∧ (i 1).val < (i 1).val / 512 * 512 + 512; omega

/-- The result array after the call: the array of nearest distances. -/
theorem final (c : Dev nD) : (dats m 0 c).arrAt 2 cfg0.N = G m c :=
  (dats m 0 c).arrAt_eq_of_cover 2 (G m c) (fun t _ => flushed_eq m c t) (cover)

/-- The program's result: the mean of the nearest distances. -/
def result (c : Dev nD) : Buf (Elt Ideal) ((c : Thread nD τ).loc main_v2) :=
  meanOf reducesTo_S4x8192_S_d0_1 h_S_ (G m c)

/-- The host lines after the call, applied to what the call leaves, give that mean. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 2).trans (final m c)]
  rfl

/-- The run, read: the result at the mean of the nearest distances of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
/-
  What the reference computes before its mean, on the extended reals: at `(b, m)` the minimum over the target points
  `n`, from `+∞`, of `√(max((|A[b,·,m]|² + |B[b,·,n]|²) − 2 ⟨A[b,·,m], B[b,·,n]⟩, 0))` — the array of nearest
  distances. The squared norms are sums over the three coordinates from zero, which are the left-to-right sums.
-/
import proofs.«155955_j66022237274633_2_alg».proof.Proof.Gen.ReferenceIdeal.Read
import proofs.«155955_j66022237274633_2_alg».proof.Proof.LibMinReduce
import proofs.«155955_j66022237274633_2_alg».proof.Proof.Dist

noncomputable section

namespace Cert.ReferenceIdeal.RefValue

open Idealize.ShloMosaic Idealize.ShloMosaic.ValueIdx
open Cert.ReferenceIdeal Cert.ReferenceIdeal.Gen Cert.ReferenceIdeal.Read Cert.Chamfer

variable (A B : (⟨S4x3x8192, .f32⟩ : BufTy).Contents (Elt Ideal))

/-- Where the squared norm of source point `m` reads the first argument. -/
theorem idx_src (b : Fin 4) (m n : Fin 8192) (k : Fin 3) :
    idx_main_v1 (idx_main_v5 (idx_main_v7 (ix3 b m n))) k = ix3 b k m :=
  funext fun a => Fin.ext (by match a with | ⟨0, _⟩ => rfl | ⟨1, _⟩ => rfl | ⟨2, _⟩ => rfl)

/-- Where the squared norm of target point `n` reads the second argument. -/
theorem idx_dst (b : Fin 4) (m n : Fin 8192) (k : Fin 3) :
    idx_main_v3 (idx_main_v6 (idx_main_v8 (ix3 b m n))) k = ix3 b k n :=
  funext fun a => Fin.ext (by match a with | ⟨0, _⟩ => rfl | ⟨1, _⟩ => rfl | ⟨2, _⟩ => rfl)

/-- Where the inner product reads its operands. -/
theorem idx_l (b : Fin 4) (m n : Fin 8192) (k : Fin 3) : lidx_main_v4 (ix3 b m n) k = ix3 b k m :=
  funext fun a => Fin.ext (by match a with | ⟨0, _⟩ => rfl | ⟨1, _⟩ => rfl | ⟨2, _⟩ => rfl)
theorem idx_r (b : Fin 4) (m n : Fin 8192) (k : Fin 3) : ridx_main_v4 (ix3 b m n) k = ix3 b k n :=
  funext fun a => Fin.ext (by match a with | ⟨0, _⟩ => rfl | ⟨1, _⟩ => rfl | ⟨2, _⟩ => rfl)

/-- The reference's distance at `(b, m, n)`. -/
theorem dist_apply (b : Fin 4) (m n : Fin 8192) :
    val_main_v15 (F := Ideal) A B (ix3 b m n)
      = clampRoot (dist2 (fun d => A (ix3 b d m)) (fun d => B (ix3 b d n))) := by
  rw [val_main_v15_apply, val_main_v14_apply, val_main_v12_apply, val_main_v9_apply, val_main_v11_apply,
    val_main_v7_apply, val_main_v8_apply, val_main_v5_apply, val_main_v6_apply, val_main_v1_apply, val_main_v3_apply,
    val_main_v4_apply, val_main_v10_apply, val_main_v13_apply]
  have hsrc : val_main_cst (F := Ideal) (Shape.Idx.first h_S_)
      + ∑ k : Fin 3, val_main_v0 (F := Ideal) A (idx_main_v1 (idx_main_v5 (idx_main_v7 (ix3 b m n))) k)
      = sqn (fun d => A (ix3 b d m)) := by
    rw [Fin.sum_univ_three, idx_src, idx_src, idx_src]
    show Ideal.ofBits .f32 0x00000000#32 + _ = _
    rw [Ideal.ofBits_zero_f32, zero_add]
    rfl
  have hdst : val_main_cst_0 (F := Ideal) (Shape.Idx.first h_S_)
      + ∑ k : Fin 3, val_main_v2 (F := Ideal) B (idx_main_v3 (idx_main_v6 (idx_main_v8 (ix3 b m n))) k)
      = sqn (fun d => B (ix3 b d n)) := by
    rw [Fin.sum_univ_three, idx_dst, idx_dst, idx_dst]
    show Ideal.ofBits .f32 0x00000000#32 + _ = _
    rw [Ideal.ofBits_zero_f32, zero_add]
    rfl
  have hcross : (∑ k : Fin 3, A (lidx_main_v4 (ix3 b m n) k) * B (ridx_main_v4 (ix3 b m n) k))
      = ∑ d : Fin 3, A (ix3 b d m) * B (ix3 b d n) :=
    Finset.sum_congr rfl fun k _ => by rw [idx_l, idx_r]
  rw [hsrc, hdst, hcross]
  rfl

/-- The reference's minimum over the target points is the array of nearest distances. -/
theorem stage_eq : val_main_v16 (F := Ideal) A B = nearestArr A B := by
  funext i
  obtain ⟨b, m, rfl⟩ : ∃ (b : Fin 4) (m : Fin 8192), i = ix2 b m := ⟨i 0, i 1, eq_ix2 i⟩
  unfold val_main_v16
  rw [hostReduce_minimumf_last3 _ _ reducesTo_S4x8192x8192_S4x8192_d2 (by decide) h_S_ b m, nearestArr_ix2]
  unfold nearest
  show Finset.fold min infW _ _ = _
  exact congrArg (fun f => Finset.fold min infW f (Finset.univ : Finset (Fin 8192))) (funext fun n => dist_apply A B b m n)

end Cert.ReferenceIdeal.RefValue

end
-- ==== Proof.lean ====
/-
  The mean nearest-neighbour distance from one point cloud to another: the kernel against its reference.

  Both programs take two clouds `A, B` of `8192` points in each of four batches (`[4, 3, 8192]`: batch, coordinate,
  point) and return one number: the mean, over batches `b` and source points `m`, of the distance from `A[b,·,m]` to
  the nearest point of `B[b,·,·]`. The squared distance is `(|P|² + |Q|²) − 2 ⟨P, Q⟩` in both.

  The reference takes `√(max(d², 0))` of all `8192 × 8192` squared distances of a batch and then the minimum over the
  target points. The kernel, per block of 512 source points, keeps a running minimum of the SQUARED distances over
  sixteen chunks of 512 target points and takes `√(max(·, 0))` once at the end. On the extended reals the two agree
  because `x ↦ √(max(x, 0))` is monotone and fixes `+∞` (so it commutes with a finite minimum folded from `+∞`),
  a minimum taken chunk by chunk is the minimum over all entries, and the squared norms — a left-to-right sum of three
  squares in the kernel, a sum over the coordinate axis from zero in the reference — are the same sum. Nothing here needs
  the inputs to be finite. The ideal pass rewrote nothing, so the kernel's idealization is its own text.
-/
import proofs.«155955_j66022237274633_2_alg».proof.Defs
import proofs.«155955_j66022237274633_2_alg».proof.Proof.Gen.Kernel
import proofs.«155955_j66022237274633_2_alg».proof.Proof.Gen.Kernel.Frame
import proofs.«155955_j66022237274633_2_alg».proof.Proof.Gen.KernelIdeal
import proofs.«155955_j66022237274633_2_alg».proof.Proof.Gen.KernelIdeal.Frame
import proofs.«155955_j66022237274633_2_alg».proof.Proof.Gen.ReferenceIdeal
import proofs.«155955_j66022237274633_2_alg».proof.Proof.Gen.Pre_finite_inputs
import proofs.«155955_j66022237274633_2_alg».proof.Proof.Gen.ReferenceIdeal.Run
import proofs.«155955_j66022237274633_2_alg».proof.Proof.Gen.ReferenceIdeal.Read
import proofs.«155955_j66022237274633_2_alg».proof.Proof.KernelValue
import proofs.«155955_j66022237274633_2_alg».proof.Proof.RefValue
import Idealize.ShloMosaic.Adequacy
import Idealize.ShloMosaic.Init

noncomputable section

namespace Cert.Proof

open Idealize.ShloMosaic Idealize.SL.Sem Cert.Chamfer

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- On the extended reals both programs end at the mean of the nearest distances of the arguments. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _).trans ?_
  show _ = Cert.KernelIdeal.Value.result m c
  rw [(hagree c).1, (hagree c).2]
  unfold Cert.ReferenceIdeal.Read.val_main_v18 Cert.ReferenceIdeal.Read.val_main_v17
  rw [Cert.ReferenceIdeal.RefValue.stage_eq]
  unfold Cert.KernelIdeal.Value.result
  rw [Cert.KernelIdeal.Value.G_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
